-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S8388608 : Shape := ⟨1, ![8388608]⟩
abbrev S4096 : Shape := ⟨1, ![4096]⟩
abbrev S4096x2048 : Shape := ⟨2, ![4096, 2048]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S8388608 : S_.BroadcastsInDim S8388608 (![] : Fin 0 → Fin S8388608.rank)
  reducesTo_S8388608_S_d0 : S8388608.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2048x4096 .f32) (main_arg1 : FVec F S8388608 .f32) (main_arg2 : FVec F S4096 .f32) (main_arg3 : IVec S4096x2048 32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S8388608 .f32 := Host.absf main_arg1
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2048x4096 : Shape := ⟨2, ![2048, 4096]⟩
abbrev S8388608 : Shape := ⟨1, ![8388608]⟩
abbrev S4096 : Shape := ⟨1, ![4096]⟩
abbrev S4096x2048 : Shape := ⟨2, ![4096, 2048]⟩
abbrev S4096x1 : Shape := ⟨2, ![4096, 1]⟩
abbrev S_ : Shape := ⟨0, ![]⟩
abbrev S4096x4096 : Shape := ⟨2, ![4096, 4096]⟩
abbrev S4096x2048x1 : Shape := ⟨3, ![4096, 2048, 1]⟩
abbrev S4096x2048x2 : Shape := ⟨3, ![4096, 2048, 2]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 32
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S8388608, .f32⟩
  | .hbm, ⟨2, _⟩ => ⟨S4096, .f32⟩
  | .hbm, ⟨3, _⟩ => ⟨S4096x2048, .i32⟩
  | .hbm, ⟨4, _⟩ => ⟨S4096, .i32⟩
  | .hbm, ⟨5, _⟩ => ⟨S4096x1, .i32⟩
  | .hbm, ⟨6, _⟩ => ⟨S_, .f32⟩
  | .hbm, ⟨7, _⟩ => ⟨S4096x4096, .f32⟩
  | .hbm, ⟨8, _⟩ => ⟨S4096x2048, .f32⟩
  | .hbm, ⟨9, _⟩ => ⟨S_, .i32⟩
  | .hbm, ⟨10, _⟩ => ⟨S4096x1, .i32⟩
  | .hbm, ⟨11, _⟩ => ⟨S4096x1, .i1⟩
  | .hbm, ⟨12, _⟩ => ⟨S_, .i32⟩
  | .hbm, ⟨13, _⟩ => ⟨S4096x1, .i32⟩
  | .hbm, ⟨14, _⟩ => ⟨S4096x1, .i32⟩
  | .hbm, ⟨15, _⟩ => ⟨S4096x1, .i32⟩
  | .hbm, ⟨16, _⟩ => ⟨S_, .i32⟩
  | .hbm, ⟨17, _⟩ => ⟨S4096x2048, .i32⟩
  | .hbm, ⟨18, _⟩ => ⟨S4096x2048, .i1⟩
  | .hbm, ⟨19, _⟩ => ⟨S_, .i32⟩
  | .hbm, ⟨20, _⟩ => ⟨S4096x2048, .i32⟩
  | .hbm, ⟨21, _⟩ => ⟨S4096x2048, .i32⟩
  | .hbm, ⟨22, _⟩ => ⟨S4096x2048, .i32⟩
  | .hbm, ⟨23, _⟩ => ⟨S4096x2048, .i32⟩
  | .hbm, ⟨24, _⟩ => ⟨S4096x2048x1, .i32⟩
  | .hbm, ⟨25, _⟩ => ⟨S4096x2048x1, .i32⟩
  | .hbm, ⟨26, _⟩ => ⟨S4096x2048x2, .i32⟩
  | .hbm, ⟨27, _⟩ => ⟨S4096x4096, .f32⟩
  | .hbm, ⟨28, _⟩ => ⟨S2048x4096, .bf16⟩
  | .hbm, ⟨29, _⟩ => ⟨S4096x4096, .bf16⟩
  | .hbm, ⟨30, _⟩ => ⟨S1x4096, .f32⟩
  | .hbm, ⟨31, _⟩ => ⟨S2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S4096_S4096x1_0 : S4096.BroadcastsInDim S4096x1 (![0] : Fin 1 → Fin S4096x1.rank)
  bcast_S_S4096x4096 : S_.BroadcastsInDim S4096x4096 (![] : Fin 0 → Fin S4096x4096.rank)
  shapeCasts_S8388608_S4096x2048 : S8388608.ShapeCasts S4096x2048
  bcast_S_S4096x1 : S_.BroadcastsInDim S4096x1 (![] : Fin 0 → Fin S4096x1.rank)
  bcast_S_S4096x2048 : S_.BroadcastsInDim S4096x2048 (![] : Fin 0 → Fin S4096x2048.rank)
  bcast_S4096x1_S4096x2048_0_1 : S4096x1.BroadcastsInDim S4096x2048 (![0, 1] : Fin 2 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S4096x4096_S4096x2048x2_S4096x2048_n_01_01_2_wf : ScatterDims.WF S4096x4096 S4096x2048x2 S4096x2048 [] [0, 1] [0, 1] 2
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x4096.size a
  hwx0_0 : ∀ i : grid0.Coords, EltTy.bits .bf16 = 32 ∨ (Rect.block (s := S2048x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S2048x4096.size a
  hwx0_3 : ∀ i : grid0.Coords, EltTy.bits .f32 = 32 ∨ (Rect.block (s := S2048x4096) S1024x1024.size (cc0_transform_3 i) (hinb0_3 i)).WholeWords (EltTy.packing .f32)

variable [Facts₀]

def scatter_S4096x4096_S4096x2048x2_S4096x2048_n_01_01_2 : ScatterDims S4096x4096 S4096x2048x2 S4096x2048 where
  updateWindowDims := []
  insertedWindowDims := [0, 1]
  scatterDimsToOperandDims := [0, 1]
  indexVectorDim := 2
  wf := scatter_S4096x4096_S4096x2048x2_S4096x2048_n_01_01_2_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v19) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x4096 : Shape := ⟨2, ![2048, 4096]⟩
abbrev S8388608 : Shape := ⟨1, ![8388608]⟩
abbrev S4096 : Shape := ⟨1, ![4096]⟩
abbrev S4096x2048 : Shape := ⟨2, ![4096, 2048]⟩
abbrev S4096x1 : Shape := ⟨2, ![4096, 1]⟩
abbrev S_ : Shape := ⟨0, ![]⟩
abbrev S4096x4096 : Shape := ⟨2, ![4096, 4096]⟩
abbrev S4096x2048x1 : Shape := ⟨3, ![4096, 2048, 1]⟩
abbrev S4096x2048x2 : Shape := ⟨3, ![4096, 2048, 2]⟩
abbrev S1x4096 : Shape := ⟨2, ![1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S8388608, .f32⟩
  | .hbm, ⟨2, _⟩ => ⟨S4096, .f32⟩
  | .hbm, ⟨3, _⟩ => ⟨S4096x2048, .i32⟩
  | .hbm, ⟨4, _⟩ => ⟨S4096, .i32⟩
  | .hbm, ⟨5, _⟩ => ⟨S4096x1, .i32⟩
  | .hbm, ⟨6, _⟩ => ⟨S_, .f32⟩
  | .hbm, ⟨7, _⟩ => ⟨S4096x4096, .f32⟩
  | .hbm, ⟨8, _⟩ => ⟨S4096x2048, .f32⟩
  | .hbm, ⟨9, _⟩ => ⟨S_, .i32⟩
  | .hbm, ⟨10, _⟩ => ⟨S4096x1, .i32⟩
  | .hbm, ⟨11, _⟩ => ⟨S4096x1, .i1⟩
  | .hbm, ⟨12, _⟩ => ⟨S_, .i32⟩
  | .hbm, ⟨13, _⟩ => ⟨S4096x1, .i32⟩
  | .hbm, ⟨14, _⟩ => ⟨S4096x1, .i32⟩
  | .hbm, ⟨15, _⟩ => ⟨S4096x1, .i32⟩
  | .hbm, ⟨16, _⟩ => ⟨S_, .i32⟩
  | .hbm, ⟨17, _⟩ => ⟨S4096x2048, .i32⟩
  | .hbm, ⟨18, _⟩ => ⟨S4096x2048, .i1⟩
  | .hbm, ⟨19, _⟩ => ⟨S_, .i32⟩
  | .hbm, ⟨20, _⟩ => ⟨S4096x2048, .i32⟩
  | .hbm, ⟨21, _⟩ => ⟨S4096x2048, .i32⟩
  | .hbm, ⟨22, _⟩ => ⟨S4096x2048, .i32⟩
  | .hbm, ⟨23, _⟩ => ⟨S4096x2048, .i32⟩
  | .hbm, ⟨24, _⟩ => ⟨S4096x2048x1, .i32⟩
  | .hbm, ⟨25, _⟩ => ⟨S4096x2048x1, .i32⟩
  | .hbm, ⟨26, _⟩ => ⟨S4096x2048x2, .i32⟩
  | .hbm, ⟨27, _⟩ => ⟨S4096x4096, .f32⟩
  | .hbm, ⟨28, _⟩ => ⟨S2048x4096, .f32⟩
  | .hbm, ⟨29, _⟩ => ⟨S1x4096, .f32⟩
  | .hbm, ⟨30, _⟩ => ⟨S2048x4096, .f32⟩
  | .hbm, ⟨31, _⟩ => ⟨S2048x4096, .f32⟩
  | .hbm, ⟨32, _⟩ => ⟨S_, .f32⟩
  | .hbm, ⟨33, _⟩ => ⟨S2048x4096, .f32⟩
  | .hbm, ⟨34, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S_S4096x4096 : S_.BroadcastsInDim S4096x4096 (![] : Fin 0 → Fin S4096x4096.rank)
  shapeCasts_S8388608_S4096x2048 : S8388608.ShapeCasts S4096x2048
  bcast_S_S4096x1 : S_.BroadcastsInDim S4096x1 (![] : Fin 0 → Fin S4096x1.rank)
  bcast_S_S4096x2048 : S_.BroadcastsInDim S4096x2048 (![] : Fin 0 → Fin S4096x2048.rank)
  bcast_S4096x1_S4096x2048_0_1 : S4096x1.BroadcastsInDim S4096x2048 (![0, 1] : Fin 2 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  bcast_S_S2048x4096 : S_.BroadcastsInDim S2048x4096 (![] : Fin 0 → Fin S2048x4096.rank)
  scatter_S4096x4096_S4096x2048x2_S4096x2048_n_01_01_2_wf : ScatterDims.WF S4096x4096 S4096x2048x2 S4096x2048 [] [0, 1] [0, 1] 2
  dot_S2048x4096_S4096x4096_S2048x4096_1_0_0_1_n_n_wf : DotDims.WF S2048x4096 S4096x4096 S2048x4096 [1] [0] [0] [1] [] []

variable [Facts₀]

def scatter_S4096x4096_S4096x2048x2_S4096x2048_n_01_01_2 : ScatterDims S4096x4096 S4096x2048x2 S4096x2048 where
  updateWindowDims := []
  insertedWindowDims := [0, 1]
  scatterDimsToOperandDims := [0, 1]
  indexVectorDim := 2
  wf := scatter_S4096x4096_S4096x2048x2_S4096x2048_n_01_01_2_wf
def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.FoundPieces.lean ====
/-
  What each control case of the body leaves, as values.

  The body runs in one of three cases, by the position k on the contraction axis. At k = 0 it stores the zero block
  into the running total, reads it back and stores the first step; at 0 < k < 3 it stores one step over the total
  the point before left; at k = 3 it does the same and then stores the epilogue of the new total into the output
  block. Every store covers its whole buffer, so what a buffer ends holding is its last store's value, and every
  load reads a whole buffer, so it reads that buffer's contents. Stated for any float instance.
-/
import proofs.«103737_j38199439130922_1_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen Idealize.ShloMosaic Idealize.ShloMosaic.TcCoe Idealize.SL.Sem

variable {F : FTy → Type} [FloatOps F]

theorem zero_offsets : (![0, 0] : Fin 2 → Nat) = fun _ => 0 := funext fun a => by fin_cases a <;> rfl

/-- At k = 0 the running total ends at the first step over the zero block. -/
theorem total_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) zero_offsets, View.readCov_unit_zero (S := S1024x1024) _ zero_offsets]
  simp only [View.readAt_eq_ld, harg3.read_unread, harg4.read_unread, View.ld_unit_zero (S := S1024x1024) zero_offsets]

/-- At 0 < k < 3 the running total ends at one step over what the point before left. -/
theorem total_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S1024x1024) zero_offsets]
  simp only [View.readAt_eq_ld, harg3.read_unread, harg4.read_unread, harg7.read_unread, View.ld_unit_zero (S := S1024x1024) zero_offsets]

/-- At k = 3 the running total likewise; -/
theorem total_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S1024x1024) zero_offsets]
  simp only [View.readAt_eq_ld, harg3.read_unread, harg4.read_unread, harg7.read_unread, View.ld_unit_zero (S := S1024x1024) zero_offsets]

/-- and the output block ends at the epilogue of that new total and the bias block. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x1024) zero_offsets]
  simp only [View.readAt_eq_ld, harg3.read_unread, harg4.read_unread, harg5.read_unread, harg7.read_unread,
    View.ld_unit_zero (S := S1024x1024) zero_offsets, View.ld_unit_zero (S := S1x1024) zero_offsets,
    View.readCov_unit_zero (S := S1024x1024) _ zero_offsets]

end Cert.KernelIdeal.Body

end
-- ==== Proof.BodyArith.lean ====
/-
  The kernel body's arithmetic, read at one entry of a 1024 × 1024 block, at the extended reals.

  The body has three pure values. The first is the zero block the running total is reset to. The second adds one
  block product to the running total: entry (r, c) gains ∑ₖ a[r,k] · b[k,c] over the 1024 columns of the activation
  block `a` and rows of the weight block `b` (the matrix unit starts from a zero accumulator, so it contributes the
  plain sum). The third finishes: it adds the bias row's entry c to every row and takes `max` against the zero word.
-/
import proofs.«103737_j38199439130922_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- One block product at entry (r, c): ∑ₖ a[r,k] · b[k,c] over the block's 1024 contraction positions. -/
def blockDot (a b : Vec Ideal S1024x1024 .bf16) (y : S1024x1024.Idx) : EReal :=
  ∑ k : Fin 1024, a (ix2 (y 0) k) * b (ix2 k (y 1))

/-- The reset value is zero at every entry. -/
theorem reset_apply (y : S1024x1024.Idx) : k0_pay1 (F := Ideal) y = 0 := by
  unfold k0_pay1
  simp only [shapeCast_self]
  exact Ideal.ofBits_zero_f32

/-- The matrix unit into a zero accumulator, at entry (r, c), is the block product: its one contracted axis is
    re-indexed by its position k, the left operand read at (r, k), the right at (k, c). -/
theorem matmul_zero_apply (a b : Vec Ideal S1024x1024 .bf16) (y : S1024x1024.Idx) :
    matmul (F := Ideal) (φ₁ := .bf16) (φ₂ := .bf16) dot_S1024x1024_S1024x1024_S1024x1024_1_0_0_1_n_n none a b (constant S1024x1024 .f32 0x00000000#32) y
      = blockDot a b y := by
  simp only [matmul]
  rw [Ideal.matmul_constant_zero_apply, ← Equiv.sum_comp (contrEquiv1 dot_S1024x1024_S1024x1024_S1024x1024_1_0_0_1_n_n 1024 rfl rfl).symm]
  unfold blockDot
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx y ((contrEquiv1 dot_S1024x1024_S1024x1024_S1024x1024_1_0_0_1_n_n 1024 rfl rfl).symm k) = ix2 (y 0) k := funext fun ax => Fin.ext (by
    match ax with
    | ⟨0, _⟩ =>
      show (dot_S1024x1024_S1024x1024_S1024x1024_1_0_0_1_n_n.lhsIdx y _ 0).val = (y 0).val
      unfold DotDims.lhsIdx
      rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
      rfl
    | ⟨1, _⟩ => exact (dot_S1024x1024_S1024x1024_S1024x1024_1_0_0_1_n_n.lhsIdx_val_of_single rfl y _).trans hk)
  have er : dot_S1024x1024_S1024x1024_S1024x1024_1_0_0_1_n_n.rhsIdx y ((contrEquiv1 dot_S1024x1024_S1024x1024_S1024x1024_1_0_0_1_n_n 1024 rfl rfl).symm k) = ix2 k (y 1) := funext fun ax => Fin.ext (by
    match ax with
    | ⟨0, _⟩ => exact (dot_S1024x1024_S1024x1024_S1024x1024_1_0_0_1_n_n.rhsIdx_val_of_single rfl y _).trans hk
    | ⟨1, _⟩ =>
      show (dot_S1024x1024_S1024x1024_S1024x1024_1_0_0_1_n_n.rhsIdx y _ 1).val = (y 1).val
      unfold DotDims.rhsIdx
      rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
      rfl)
  rw [el, er]
  rfl

/-- One accumulation step: entry (r, c) of the running total gains the block product there. -/
theorem step_apply (acc : Vec Ideal S1024x1024 .f32) (a b : Vec Ideal S1024x1024 .bf16) (y : S1024x1024.Idx) :
    k0_pay2 (F := Ideal) acc a b y = acc y + blockDot a b y := by
  unfold k0_pay2
  simp only [shapeCast_self]
  exact congrArg (acc y + ·) (matmul_zero_apply a b y)

/-- The epilogue: entry (r, c) is  max (total[r,c] + bias[c], 0). -/
theorem finish_apply (acc : Vec Ideal S1024x1024 .f32) (bias : Vec Ideal S1x1024 .f32) (r c : Fin 1024) :
    k0_pay3 (F := Ideal) acc bias (ix2 r c) = max (acc (ix2 r c) + bias (ix2 (0 : Fin 1) c)) (Ideal.ofBits .f32 0x00000000#32) := by
  unfold k0_pay3
  simp only [shapeCast_self]
  show max (acc (ix2 r c) + broadcastTo S1024x1024 bias broadcasts_S1x1024_S1024x1024 (ix2 r c)) _ = _
  rw [broadcastTo_1b_ab_apply]
  rfl

end Cert.KernelIdeal.Body

end
-- ==== Proof.HostPrefix.lean ====
/-
  What the region finds in the three arrays it stages.

  Before the region the host converts the activations to the narrow float format (the identity on extended reals),
  builds the weight matrix — a zero matrix overwritten by a scatter of the value vector at (row, column-table entry) —
  and converts it likewise, and reshapes the bias vector to one row. The scatter is wrapped in ONE definition,
  `weights`, a function of the value vector and the column table, and is never opened: the other program builds its
  matrix by the same operations on the same arguments.
-/
import proofs.«103737_j38199439130922_1_alg».proof.Proof.Gen.KernelIdeal.Frame.Runs
import Idealize.ShloMosaic.Lib.StableHlo.Run
import Idealize.ShloMosaic.Lib.ValueIdx

noncomputable section

namespace Cert.KernelIdeal.HostPrefix

open Cert.KernelIdeal Cert.KernelIdeal.Gen Idealize.ShloMosaic Idealize.ShloMosaic.TcCoe Idealize.SL.Sem Idealize.ShloMosaic.StableHlo

variable {F : FTy → Type} [FloatOps F]

/-- The dense weight matrix: zeros, overwritten at (row, column) by the value vector reshaped to rows, where the
    column is the table's entry (a negative entry wrapped once by the matrix width) and the row is the entry's own
    row (wrapped likewise). -/
def weights (x1 : (⟨S8388608, .f32⟩ : BufTy).Contents (Elt F)) (x3 : (⟨S4096x2048, .i32⟩ : BufTy).Contents (Elt F)) :
    (⟨S4096x4096, .f32⟩ : BufTy).Contents (Elt F) :=
  Host.scatter scatter_S4096x4096_S4096x2048x2_S4096x2048_n_01_01_2 (fun _ b => b)
    (broadcastInDim S4096x4096 ![] bcast_S_S4096x4096 (constant S_ .f32 0x00000000#32))
    (concatenate S4096x2048x2 2
      [⟨S4096x2048x1, (broadcastInDim S4096x2048x1 ![0, 1] bcast_S4096x2048_S4096x2048x1_0_1 (broadcastInDim S4096x2048 ![0, 1] bcast_S4096x1_S4096x2048_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩,
       ⟨S4096x2048x1, (broadcastInDim S4096x2048x1 ![0, 1] bcast_S4096x2048_S4096x2048x1_0_1 (select (cmpi .slt (x3) (broadcastInDim S4096x2048 ![] bcast_S_S4096x2048 (constantI S_ 32 0#32))) (addi (x3) (broadcastInDim S4096x2048 ![] bcast_S_S4096x2048 (constantI S_ 32 4096#32))) (x3)))⟩]
      concatenates_S4096x2048x1_S4096x2048x1_S4096x2048x2_d2)
    (shapeCast _ (x1) shapeCasts_S8388608_S4096x2048)

variable (m : (ℓ : Loc nD τ sig) → Buf (Elt F) ℓ)

/-- The activations as the region finds them: the first argument, converted. -/
theorem V_acts (c : Dev nD) :
    V m c main_v19 = truncf .bf16 (m ((c : Thread nD τ).loc main_arg0)) bitsLt_bf16_f32 := by
  dsimp only [Gen.V, Gen.hostOps0]; after_results_simp <;> rfl

set_option maxHeartbeats 2000000 in
/-- The weights as the region finds them: `weights` of the second and fourth arguments, converted. -/
theorem V_weights (c : Dev nD) :
    V m c main_v20 = truncf .bf16 (weights (m ((c : Thread nD τ).loc main_arg1)) (m ((c : Thread nD τ).loc main_arg3))) bitsLt_bf16_f32 := by
  unfold weights
  dsimp only [Gen.V, Gen.hostOps0]; after_results_simp <;> rfl

/-- The bias as the region finds it: the third argument as one row. -/
theorem V_bias (c : Dev nD) :
    V m c main_v21 = shapeCast S1x4096 (m ((c : Thread nD τ).loc main_arg2)) shapeCasts_S4096_S1x4096 := by
  dsimp only [Gen.V, Gen.hostOps0]; after_results_simp <;> rfl

/- From here on `weights` is a closed box: nothing below reads inside it. -/
attribute [irreducible] weights

end Cert.KernelIdeal.HostPrefix

end
-- ==== Proof.Spec.lean ====
/-
  The function both programs compute, and the one law that joins them.

  A dense layer with a rectifier: for an activation matrix `x` (2048 × 4096), a weight matrix `w` (4096 × 4096)
  and a bias row `b` (4096), entry (p, q) of the result is  max (∑ₖ x[p,k] · w[k,q] + b[q], 0)  over the
  extended reals. One program contracts the 4096 terms in one sum; the other contracts them in four consecutive
  blocks of 1024, adding each block's sum to a running total that starts at zero. Addition of extended reals is
  commutative and associative (also at ±∞), so a sum over `J · B` consecutive naturals is the sum of its `J` blocks of
  `B` (`sum_range_blocks`); nothing here needs the entries to be finite.

  Entries are read at natural-number coordinates (`at2`: zero outside the matrix), so that block offsets are plain
  arithmetic.
-/
import Idealize.ShloMosaic.PureOps.Ideal
import Idealize.ShloMosaic.PureOps.Ideal.Laws
import Idealize.ShloMosaic.Lib.ValueIdx

noncomputable section

namespace Cert.DenseRelu

open Idealize.ShloMosaic Idealize.ShloMosaic.ValueIdx

/-- Entry (r, c) of an R × C matrix of extended reals at natural-number coordinates; zero outside the matrix. -/
def at2 {R C : ℕ} (A : (⟨2, ![R, C]⟩ : Shape).Idx → EReal) (r c : ℕ) : EReal :=
  if h : r < R ∧ c < C then A (ix2 ⟨r, h.1⟩ ⟨c, h.2⟩) else 0

/-- Inside the matrix `at2` is the entry. -/
theorem at2_of_lt {R C : ℕ} (A : (⟨2, ![R, C]⟩ : Shape).Idx → EReal) (r c : ℕ) (hr : r < R) (hc : c < C) :
    at2 A r c = A (ix2 ⟨r, hr⟩ ⟨c, hc⟩) := dif_pos ⟨hr, hc⟩

/-- At an index's own coordinates `at2` is the entry at that index. -/
theorem at2_idx {R C : ℕ} (A : (⟨2, ![R, C]⟩ : Shape).Idx → EReal) (i : (⟨2, ![R, C]⟩ : Shape).Idx) :
    at2 A (i 0).val (i 1).val = A i := by
  rw [at2_of_lt A _ _ (i 0).isLt (i 1).isLt]
  exact congrArg A (eq_ix2 i).symm

/-- An entry whose index has coordinates (r, c) is `at2` at (r, c). -/
theorem read_at {R C : ℕ} (A : (⟨2, ![R, C]⟩ : Shape).Idx → EReal) (i : (⟨2, ![R, C]⟩ : Shape).Idx) (r c : ℕ)
    (h0 : (i 0).val = r) (h1 : (i 1).val = c) : A i = at2 A r c := by
  subst h0 h1; exact (at2_idx A i).symm

/-- A sum over `J · B` consecutive naturals is the sum of its `J` consecutive blocks of `B`: block `s` holds the
    naturals `s · B + k`, `k < B`. (Any commutative monoid; used on the extended reals.) -/
theorem sum_range_blocks {M : Type*} [AddCommMonoid M] (f : ℕ → M) (J B : ℕ) :
    ∑ s ∈ Finset.range J, ∑ k ∈ Finset.range B, f (s * B + k) = ∑ k ∈ Finset.range (J * B), f k := by
  induction J with
  | zero => simp
  | succ J ih => rw [Finset.sum_range_succ, ih, Nat.succ_mul, Finset.sum_range_add]

/-- THE FUNCTION: entry (p, q) is  max (∑ₖ x[p,k] · w[k,q] + b[q], 0). The zero is kept as the f32 word both programs
    print for it. -/
def dense (x : (⟨2, ![2048, 4096]⟩ : Shape).Idx → EReal) (w : (⟨2, ![4096, 4096]⟩ : Shape).Idx → EReal)
    (b : (⟨1, ![4096]⟩ : Shape).Idx → EReal) : (⟨2, ![2048, 4096]⟩ : Shape).Idx → EReal := fun i =>
  max ((∑ k : Fin 4096, x (ix2 (i 0) k) * w (ix2 k (i 1))) + b (ix1 (i 1))) (Ideal.ofBits .f32 0x00000000#32)

/-- `dense` at an index, unfolded. -/
theorem dense_apply (x : (⟨2, ![2048, 4096]⟩ : Shape).Idx → EReal) (w : (⟨2, ![4096, 4096]⟩ : Shape).Idx → EReal)
    (b : (⟨1, ![4096]⟩ : Shape).Idx → EReal) (i : (⟨2, ![2048, 4096]⟩ : Shape).Idx) :
    dense x w b i
      = max ((∑ k : Fin 4096, x (ix2 (i 0) k) * w (ix2 k (i 1))) + b (ix1 (i 1))) (Ideal.ofBits .f32 0x00000000#32) := rfl

/-- The contraction of `dense` at (p, q), read at natural-number coordinates, is the sum of its four blocks of 1024
    terms. -/
theorem contraction_blocked (x : (⟨2, ![2048, 4096]⟩ : Shape).Idx → EReal) (w : (⟨2, ![4096, 4096]⟩ : Shape).Idx → EReal)
    (p : Fin 2048) (q : Fin 4096) :
    ∑ k : Fin 4096, x (ix2 p k) * w (ix2 k q)
      = ∑ s ∈ Finset.range 4, ∑ k ∈ Finset.range 1024, at2 x p.val (s * 1024 + k) * at2 w (s * 1024 + k) q.val := by
  rw [sum_range_blocks (fun k => at2 x p.val k * at2 w k q.val) 4 1024, Finset.sum_range]
  exact Finset.sum_congr rfl fun k _ => by
    rw [at2_of_lt x _ _ p.isLt k.isLt, at2_of_lt w _ _ k.isLt q.isLt]

end Cert.DenseRelu

end
-- ==== Proof.BlockRead.lean ====
/-
  The windows' blocks, read in the whole arrays.

  The grid has 32 points; point t stands for the output block (t / 16, t / 4 mod 4) and the contraction block
  k = t mod 4. At point t the activation window holds block (t / 16, k) of the activations, the weight window block
  (k, t / 4 mod 4) of the weights, the bias window block (0, t / 4 mod 4) of the bias row, and the output window names
  block (t / 16, t / 4 mod 4) of the result. Entry (r, s) of a block with block index (I, J) is entry
  (1024 · I + r, 1024 · J + s) of its array. The two format conversions before the region are the identity on extended
  reals, and the one-row reshape of the bias reads the vector at the same position.
-/
import proofs.«103737_j38199439130922_1_alg».proof.Proof.Gen.KernelIdeal.Frame.Runs
import proofs.«103737_j38199439130922_1_alg».proof.Proof.HostPrefix
import proofs.«103737_j38199439130922_1_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.DenseRelu Cert.KernelIdeal.HostPrefix

variable (m : (ℓ : Loc nD τ sig) → Buf (Elt Ideal) ℓ)

/-- The four index maps at point t, each decided over the grid. -/
theorem acts_index : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem weights_index : ∀ t : Fin cfg0.N, win0_1.index t (0 : Fin 2) = t.val % 4 ∧ win0_1.index t (1 : Fin 2) = t.val / 4 % 4 :=
  (by decide +kernel : ∀ t : Fin grid0.N, win0_1.index t (0 : Fin 2) = t.val % 4 ∧ win0_1.index t (1 : Fin 2) = t.val / 4 % 4)
theorem bias_index : ∀ t : Fin cfg0.N, win0_2.index t (0 : Fin 2) = 0 ∧ win0_2.index t (1 : Fin 2) = t.val / 4 % 4 :=
  (by decide +kernel : ∀ t : Fin grid0.N, win0_2.index t (0 : Fin 2) = 0 ∧ win0_2.index t (1 : Fin 2) = t.val / 4 % 4)
theorem out_index : ∀ t : Fin cfg0.N, win0_3.index t (0 : Fin 2) = t.val / 16 ∧ win0_3.index t (1 : Fin 2) = t.val / 4 % 4 :=
  (by decide +kernel : ∀ t : Fin grid0.N, win0_3.index t (0 : Fin 2) = t.val / 16 ∧ win0_3.index t (1 : Fin 2) = t.val / 4 % 4)

/-! ## A block read in an arbitrary array

Stated for any matrix `B` in the window's array, so that what the host computed into the array never enters. -/

/-- Entry (r, k) of the activation window's block at point t, read in `B`: `B` at
    (1024 · (t / 16) + r, 1024 · (t mod 4) + k). -/
theorem acts_read (t : Fin cfg0.N) (r k : Fin 1024) (B : (⟨2, ![2048, 4096]⟩ : Shape).Idx → EReal) :
    (((cfg0.win 0).blk t).view.read (Elt Ideal) B : Vec Ideal S1024x1024 .bf16) (ix2 r k)
      = at2 B (t.val / 16 * 1024 + r.val) (t.val % 4 * 1024 + k.val) := by
  obtain ⟨e0, e1⟩ := acts_index t
  rw [View.read_apply]
  refine read_at B _ _ _ ?_ ?_
  · show win0_0.index t (0 : Fin 2) * 1024 + 1 * r.val = _
    rw [e0]; omega
  · show win0_0.index t (1 : Fin 2) * 1024 + 1 * k.val = _
    rw [e1]; omega

/-- Entry (k, q) of the weight window's block at point t, read in `B`: `B` at
    (1024 · (t mod 4) + k, 1024 · (t / 4 mod 4) + q). -/
theorem weights_read (t : Fin cfg0.N) (k q : Fin 1024) (B : (⟨2, ![4096, 4096]⟩ : Shape).Idx → EReal) :
    (((cfg0.win 1).blk t).view.read (Elt Ideal) B : Vec Ideal S1024x1024 .bf16) (ix2 k q)
      = at2 B (t.val % 4 * 1024 + k.val) (t.val / 4 % 4 * 1024 + q.val) := by
  obtain ⟨e0, e1⟩ := weights_index t
  rw [View.read_apply]
  refine read_at B _ _ _ ?_ ?_
  · show win0_1.index t (0 : Fin 2) * 1024 + 1 * k.val = _
    rw [e0]; omega
  · show win0_1.index t (1 : Fin 2) * 1024 + 1 * q.val = _
    rw [e1]; omega

/-- Entry (0, q) of the bias window's block at point t, read in a one-row `B`: `B` at (0, j) for
    j = 1024 · (t / 4 mod 4) + q. -/
theorem bias_read (t : Fin cfg0.N) (q : Fin 1024) (j : Fin 4096) (hj : j.val = t.val / 4 % 4 * 1024 + q.val)
    (B : (⟨2, ![1, 4096]⟩ : Shape).Idx → EReal) :
    (((cfg0.win 2).blk t).view.read (Elt Ideal) B : Vec Ideal S1x1024 .f32) (ix2 (0 : Fin 1) q) = B (ix2 (0 : Fin 1) j) := by
  obtain ⟨e0, e1⟩ := bias_index t
  rw [View.read_apply]
  refine congrArg B (funext fun a => Fin.ext ?_)
  match a with
  | ⟨0, _⟩ =>
    show win0_2.index t (0 : Fin 2) * 1 + 1 * (0 : Fin 1).val = 0
    rw [e0]; simp
  | ⟨1, _⟩ =>
    show win0_2.index t (1 : Fin 2) * 1024 + 1 * q.val = j.val
    rw [e1, hj]; omega

/-! ## What the region finds in the three arrays -/

/-- The activations' array holds the first argument (the conversion is the identity); -/
theorem found_acts (c : Dev nD) :
    (V m c (Pipeline.arrRef spec0 0) : (⟨2, ![2048, 4096]⟩ : Shape).Idx → EReal) = m ((c : Thread nD τ).loc main_arg0) :=
  (V_acts m c).trans (funext fun i => truncf_apply _ _ i)

/-- the weights' array holds `weights` of the second and fourth arguments (likewise); -/
theorem found_weights (c : Dev nD) :
    (V m c (Pipeline.arrRef spec0 1) : (⟨2, ![4096, 4096]⟩ : Shape).Idx → EReal)
      = weights (m ((c : Thread nD τ).loc main_arg1)) (m ((c : Thread nD τ).loc main_arg3)) :=
  (V_weights m c).trans (funext fun i => truncf_apply _ _ i)

/-- the bias' array holds the third argument as one row. -/
theorem found_bias (c : Dev nD) :
    (V m c (Pipeline.arrRef spec0 2) : (⟨2, ![1, 4096]⟩ : Shape).Idx → EReal)
      = shapeCast S1x4096 (m ((c : Thread nD τ).loc main_arg2)) shapeCasts_S4096_S1x4096 :=
  V_bias m c

/-! ## The blocks at a point, in the arguments -/

/-- The activation block at point t, entry (r, k): the activations at (1024 · (t / 16) + r, 1024 · (t mod 4) + k). -/
theorem acts_block (c : Dev nD) (t : Fin cfg0.N) (r k : Fin 1024) :
    (iblk m c 0 t : Vec Ideal S1024x1024 .bf16) (ix2 r k)
      = at2 (R := 2048) (C := 4096) (m ((c : Thread nD τ).loc main_arg0)) (t.val / 16 * 1024 + r.val) (t.val % 4 * 1024 + k.val) := by
  unfold iblk
  rw [found_acts m c]
  exact acts_read t r k _

/-- The weight block at point t, entry (k, q): the weights at (1024 · (t mod 4) + k, 1024 · (t / 4 mod 4) + q). -/
theorem weights_block (c : Dev nD) (t : Fin cfg0.N) (k q : Fin 1024) :
    (iblk m c 1 t : Vec Ideal S1024x1024 .bf16) (ix2 k q)
      = at2 (R := 4096) (C := 4096) (weights (m ((c : Thread nD τ).loc main_arg1)) (m ((c : Thread nD τ).loc main_arg3)))
          (t.val % 4 * 1024 + k.val) (t.val / 4 % 4 * 1024 + q.val) := by
  unfold iblk
  rw [found_weights m c]
  exact weights_read t k q _

/-- The bias block at point t, entry (0, q): the bias at 1024 · (t / 4 mod 4) + q. -/
theorem bias_block (c : Dev nD) (t : Fin cfg0.N) (q : Fin 1024) (j : Fin 4096) (hj : j.val = t.val / 4 % 4 * 1024 + q.val) :
    (iblk m c 2 t : Vec Ideal S1x1024 .f32) (ix2 (0 : Fin 1) q) = m ((c : Thread nD τ).loc main_arg2) (ix1 j) := by
  unfold iblk
  rw [found_bias m c]
  refine (bias_read t q j hj _).trans ?_
  refine shapeCast_apply _ shapeCasts_S4096_S1x4096 _ (ix1 j) ?_
  rw [Shape.rowMajor_val_one, Shape.rowMajor_val_two]
  show j.val = (0 : Fin 1).val * 4096 + j.val
  simp

end Cert.KernelIdeal.Blocks

end
-- ==== Proof.Fold.lean ====
/-
  The running total over one run of four consecutive points.

  The points 4u, 4u + 1, 4u + 2, 4u + 3 share an output block and walk the four contraction blocks. The total is
  reset at 4u to zero plus that point's block product, and each later point adds its own block product to what the
  point before left. So after the last point, entry (r, q) of the total is zero plus the sum of the four points'
  block products there; and each block product, read in the whole arrays, is the sum over 1024 consecutive
  contraction positions of activation × weight.
-/
import proofs.«103737_j38199439130922_1_alg».proof.Proof.Gen.KernelIdeal.Value
import proofs.«103737_j38199439130922_1_alg».proof.Proof.FoundPieces
import proofs.«103737_j38199439130922_1_alg».proof.Proof.BodyArith
import proofs.«103737_j38199439130922_1_alg».proof.Proof.BlockRead

noncomputable section

namespace Cert.KernelIdeal.Fold

open Cert.KernelIdeal Cert.KernelIdeal.Gen Idealize.ShloMosaic Idealize.ShloMosaic.TcCoe Idealize.SL.Sem
open Idealize.ShloMosaic.ValueIdx Cert.DenseRelu Cert.KernelIdeal.HostPrefix Cert.KernelIdeal.Body Cert.KernelIdeal.Blocks

section AnyInstance

variable {F : FTy → Type} [FloatOps F]
variable (m : (ℓ : Loc nD τ sig) → Buf (Elt F) ℓ)

/-- At the first point of a run the total is the first step over the zero block, whatever it held before. -/
theorem total_at_first (c : Dev nD) (n : ℕ) (hb : n < cfg0.N) (h0 : n % 4 = 0) (acc : Vec F S1024x1024 .f32) :
    Value.scAt0_0 m c n hb acc
      = k0_pay2 (k0_pay1 (F := F)) (iblk m c 0 (⟨n, hb⟩ : Fin cfg0.N)) (iblk m c 1 (⟨n, hb⟩ : Fin cfg0.N)) := by
  have h1 : ¬n % 4 = 3 := by omega
  unfold Value.scAt0_0
  rw [dif_pos h0, dif_neg h1]
  exact total_first (F := F) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _
    (iblk m c 0 (⟨n, hb⟩ : Fin cfg0.N)) (iblk m c 1 (⟨n, hb⟩ : Fin cfg0.N)) (iblk m c 2 (⟨n, hb⟩ : Fin cfg0.N))

/-- At every later point of a run the total is one step over what the point before left. -/
theorem total_at_later (c : Dev nD) (n : ℕ) (hb : n < cfg0.N) (h0 : ¬n % 4 = 0) (acc : Vec F S1024x1024 .f32) :
    Value.scAt0_0 m c n hb acc
      = k0_pay2 acc (iblk m c 0 (⟨n, hb⟩ : Fin cfg0.N)) (iblk m c 1 (⟨n, hb⟩ : Fin cfg0.N)) := by
  unfold Value.scAt0_0
  rw [dif_neg h0]
  by_cases h1 : n % 4 = 3
  · rw [dif_pos h1]
    exact total_last (F := F) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _
      (iblk m c 0 (⟨n, hb⟩ : Fin cfg0.N)) (iblk m c 1 (⟨n, hb⟩ : Fin cfg0.N)) (iblk m c 2 (⟨n, hb⟩ : Fin cfg0.N)) acc
  · rw [dif_neg h1]
    exact total_middle (F := F) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _
      (iblk m c 0 (⟨n, hb⟩ : Fin cfg0.N)) (iblk m c 1 (⟨n, hb⟩ : Fin cfg0.N)) (iblk m c 2 (⟨n, hb⟩ : Fin cfg0.N)) acc

end AnyInstance

variable (m : (ℓ : Loc nD τ sig) → Buf (Elt Ideal) ℓ)

/-- Point n's addend: its block product (zero past the grid, where it is never used). -/
def addend (c : Dev nD) (n : ℕ) (y : S1024x1024.Idx) : EReal :=
  if h : n < cfg0.N then blockDot (iblk m c 0 (⟨n, h⟩ : Fin cfg0.N)) (iblk m c 1 (⟨n, h⟩ : Fin cfg0.N)) y else 0

/-- Point n's addend at (r, q), in the whole arrays: the products of the activations' row 1024 · (n / 16) + r and the
    weights' column 1024 · (n / 4 mod 4) + q over the contraction positions 1024 · (n mod 4) + k, k < 1024. -/
theorem addend_eq (c : Dev nD) (n : ℕ) (h : n < cfg0.N) (r q : Fin 1024) :
    addend m c n (ix2 r q)
      = ∑ k ∈ Finset.range 1024,
          at2 (m ((c : Thread nD τ).loc main_arg0)) (n / 16 * 1024 + r.val) (n % 4 * 1024 + k)
          * at2 (weights (m ((c : Thread nD τ).loc main_arg1)) (m ((c : Thread nD τ).loc main_arg3))) (n % 4 * 1024 + k) (n / 4 % 4 * 1024 + q.val) := by
  unfold addend
  rw [dif_pos h, Finset.sum_range]
  unfold blockDot
  refine Finset.sum_congr rfl fun k _ => ?_
  exact congrArg₂ (fun a b : EReal => a * b) (acts_block m c ⟨n, h⟩ r k) (weights_block m c ⟨n, h⟩ k q)

/-- After the last point t of a run (t mod 4 = 3), the total at an entry is zero plus the four points' addends. -/
theorem total_eq (c : Dev nD) (t : Fin cfg0.N) (h3 : t.val % 4 = 3) (y : S1024x1024.Idx) :
    (outsAt0 m c t.val t.isLt).2 y = 0 + ∑ s ∈ Finset.range 4, addend m c (4 * (t.val / 4) + s) y := by
  rw [Value.soutsAt0_0_eq m c t]
  have key := Pipeline.accAt_add_apply (N := cfg0.N) (ι := S1024x1024.Idx) (β := EReal)
    (fun n h => Value.scAt0_0 m c n h (VS0_0.read (Elt Ideal) VS0_0.junk)) (Value.scAt0_0 m c)
    (fun _ => 0) (addend m c) (4 * (t.val / 4)) 3
    (fun h i => by
      show Value.scAt0_0 m c (4 * (t.val / 4)) h (VS0_0.read (Elt Ideal) VS0_0.junk) i = 0 + addend m c (4 * (t.val / 4)) i
      rw [total_at_first m c _ h (by omega)]
      refine (step_apply _ _ _ i).trans ?_
      rw [reset_apply]
      unfold addend
      rw [dif_pos h])
    (fun n h acc i h1 h2 => by
      show Value.scAt0_0 m c n h acc i = acc i + addend m c n i
      rw [total_at_later m c n h (by omega) acc]
      refine (step_apply _ _ _ i).trans ?_
      unfold addend
      rw [dif_pos h])
  have := key (t.val % 4) (by omega) (by have := t.isLt; have := Nat.div_add_mod t.val 4; omega) y
  rw [this, h3]

end Cert.KernelIdeal.Fold

end
-- ==== Proof.KernelDense.lean ====
/-
  The kernel computes `dense`.

  The result array is written back block by block, at the last point of each run of four. What is written is the
  epilogue of the run's total and the bias block: at entry (r, q) of output block (I, J),
  max (0 + ∑ₛ ∑ₖ x[1024 I + r, 1024 s + k] · w[1024 s + k, 1024 J + q] + b[1024 J + q], 0), which is `dense` at
  (1024 I + r, 1024 J + q) once the 4096-term contraction is split into its four blocks. The eight output blocks'
  write-backs cover the array, so it ends holding `dense` everywhere.
-/
import proofs.«103737_j38199439130922_1_alg».proof.Proof.Gen.KernelIdeal.Value
import proofs.«103737_j38199439130922_1_alg».proof.Proof.Fold

noncomputable section

namespace Cert.KernelIdeal.Dense

open Cert.KernelIdeal Cert.KernelIdeal.Gen Idealize.ShloMosaic Idealize.ShloMosaic.TcCoe Idealize.SL.Sem
open Idealize.ShloMosaic.ValueIdx Cert.DenseRelu Cert.KernelIdeal.HostPrefix Cert.KernelIdeal.Body Cert.KernelIdeal.Blocks
open Cert.KernelIdeal.Fold
open Idealize.ShloMosaic.Pipeline (Dat)

variable (m : (ℓ : Loc nD τ sig) → Buf (Elt Ideal) ℓ) (ρ : Dev nD → PrngReg)

/-- The result: `dense` of the activations, the scattered weights and the bias. -/
abbrev result (c : Dev nD) : Buf (Elt Ideal) ((c : Thread nD τ).loc main_v22) :=
  dense (m ((c : Thread nD τ).loc main_arg0))
    (weights (m ((c : Thread nD τ).loc main_arg1)) (m ((c : Thread nD τ).loc main_arg3)))
    (m ((c : Thread nD τ).loc main_arg2))

/-- At the last point t of a run, entry (r, q) of the epilogue of the total is `dense` at the entry of the result that
    output block (t / 16, t / 4 mod 4) places there. -/
theorem block_entry (c : Dev nD) (t : Fin cfg0.N) (h3 : t.val % 4 = 3) (r q : Fin 1024) (i : S2048x4096.Idx)
    (hi0 : (i 0).val = t.val / 16 * 1024 + r.val) (hi1 : (i 1).val = t.val / 4 % 4 * 1024 + q.val) :
    k0_pay3 (F := Ideal) ((outsAt0 m c t.val t.isLt).2) (iblk m c 2 t) (ix2 r q) = result m c i := by
  have hN : t.val < 32 := lt_of_lt_of_eq t.isLt N_0
  refine (finish_apply ((outsAt0 m c t.val t.isLt).2) (iblk m c 2 t) r q).trans ?_
  show _ = dense (m ((c : Thread nD τ).loc main_arg0))
    (weights (m ((c : Thread nD τ).loc main_arg1)) (m ((c : Thread nD τ).loc main_arg3)))
    (m ((c : Thread nD τ).loc main_arg2)) i
  rw [dense_apply, contraction_blocked (m ((c : Thread nD τ).loc main_arg0))
      (weights (m ((c : Thread nD τ).loc main_arg1)) (m ((c : Thread nD τ).loc main_arg3))) (i 0) (i 1),
    total_eq m c t h3 (ix2 r q), zero_add, bias_block m c t q (i 1) hi1]
  congr 2
  refine Finset.sum_congr rfl fun s hs => ?_
  have hs4 : s < 4 := Finset.mem_range.mp hs
  rw [addend_eq m c _ (lt_of_lt_of_eq (by omega : 4 * (t.val / 4) + s < 32) N_0.symm) r q]
  refine Finset.sum_congr rfl fun k _ => ?_
  have e1 : (4 * (t.val / 4) + s) / 16 = t.val / 16 := by omega
  have e2 : (4 * (t.val / 4) + s) % 4 = s := by omega
  have e3 : (4 * (t.val / 4) + s) / 4 % 4 = t.val / 4 % 4 := by omega
  rw [e1, e2, e3, hi0, hi1]

/-- What the last point of a run writes back is its block of `result`. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have h0 : ¬t.val % 4 = 0 := by omega
  obtain ⟨e0, e1⟩ := out_index t
  have hout := out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3)
    (iblk m c 0 t) (iblk m c 1 t) (iblk m c 2 t) (outsAt0 m c (t.val - 1) (Nat.lt_of_le_of_lt (Nat.sub_le _ _) t.isLt)).2
  have hlast := total_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3)
    (iblk m c 0 t) (iblk m c 1 t) (iblk m c 2 t) (outsAt0 m c (t.val - 1) (Nat.lt_of_le_of_lt (Nat.sub_le _ _) t.isLt)).2
  have htot : (outsAt0 m c t.val t.isLt).2
      = k0_pay2 ((outsAt0 m c (t.val - 1) (Nat.lt_of_le_of_lt (Nat.sub_le _ _) t.isLt)).2) (iblk m c 0 t) (iblk m c 1 t) := by
    simp only [outsAt0_C m c t h0 h3]
    exact hlast
  rw [Value.flushed3_C m c t h0 h3, hout, ← htot]
  funext y
  show k0_pay3 (F := Ideal) ((outsAt0 m c t.val t.isLt).2) (iblk m c 2 t) y = result m c (((cfg0.win 3).blk t).view.emb y)
  rw [eq_ix2 (n0 := 1024) (n1 := 1024) y]
  exact block_entry m c t h3 (y 0) (y 1) _
    (by show win0_3.index t (0 : Fin 2) * 1024 + 1 * ((ix2 (y 0) (y 1) : S1024x1024.Idx) 0).val = _; rw [e0]; show _ * 1024 + 1 * (y 0).val = _; omega)
    (by show win0_3.index t (1 : Fin 2) * 1024 + 1 * ((ix2 (y 0) (y 1) : S1024x1024.Idx) 1).val = _; rw [e1]; show _ * 1024 + 1 * (y 1).val = _; omega)

/-- An index of the result is in point t's block iff each coordinate is in the block's range on its axis. -/
theorem mem_blk (t : Fin cfg0.N) (i : S2048x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v22).slice (win0_3.rect t)).set ↔ _
  rw [View.set_slice_whole, Rect.mem_set_unit]
  exact Iff.rfl

/-- Every entry (p, q) of the result is in the block written back at the last point of the run of output block
    (p / 1024, q / 1024). -/
theorem cover (i : S2048x4096.Idx) : ∃ t : Fin cfg0.N, (cfg0.win 3).flush t = true ∧ i ∈ ((cfg0.win 3).blk t).view.set := by
  have hi0 : (i 0).val < 2048 := (i 0).isLt
  have hi1 : (i 1).val < 4096 := (i 1).isLt
  have hlt : (i 0).val / 1024 * 16 + (i 1).val / 1024 * 4 + 3 < cfg0.N := by rw [show cfg0.N = 32 from N_0]; omega
  refine ⟨⟨(i 0).val / 1024 * 16 + (i 1).val / 1024 * 4 + 3, hlt⟩, (flush0_3 _).mpr (by show ((i 0).val / 1024 * 16 + (i 1).val / 1024 * 4 + 3) % 4 = 3; omega), ?_⟩
  obtain ⟨e0, e1⟩ := out_index ⟨(i 0).val / 1024 * 16 + (i 1).val / 1024 * 4 + 3, hlt⟩
  rw [mem_blk]
  intro a
  match a with
  | ⟨0, _⟩ =>
    show win0_3.index _ (0 : Fin 2) * 1024 ≤ (i 0).val ∧ (i 0).val < win0_3.index _ (0 : Fin 2) * 1024 + 1024
    rw [e0]; show ((i 0).val / 1024 * 16 + (i 1).val / 1024 * 4 + 3) / 16 * 1024 ≤ _ ∧ _ < ((i 0).val / 1024 * 16 + (i 1).val / 1024 * 4 + 3) / 16 * 1024 + 1024; omega
  | ⟨1, _⟩ =>
    show win0_3.index _ (1 : Fin 2) * 1024 ≤ (i 1).val ∧ (i 1).val < win0_3.index _ (1 : Fin 2) * 1024 + 1024
    rw [e1]; show ((i 0).val / 1024 * 16 + (i 1).val / 1024 * 4 + 3) / 4 % 4 * 1024 ≤ _ ∧ _ < ((i 0).val / 1024 * 16 + (i 1).val / 1024 * 4 + 3) / 4 % 4 * 1024 + 1024; omega

/-- The result array after the run is `result`. -/
theorem final (c : Dev nD) : (dats m 0 c).arrAt 3 cfg0.N = result m c :=
  (dats m 0 c).arrAt_eq_of_cover 3 (result m c) (flushed_eq m c) cover

/-- The kernel's run: every execution terminates with the result array at `result` and the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Dense

end
-- ==== Proof.RefDense.lean ====
/-
  The reference computes `dense`.

  Its last stage is  max (dot_general x W + broadcast b, 0): at the extended reals the `dot_general` with one
  contracted axis is the plain sum ∑ₖ x[p,k] · W[k,q], the two broadcasts of the bias read b[q] at every row, and the
  rectifier is `max` against the zero word. `W` is the matrix the scatter builds from the value vector and the column
  table; it is never opened here — the other program builds it by the same operations.
-/
import proofs.«103737_j38199439130922_1_alg».proof.Proof.Gen.ReferenceIdeal.Read
import proofs.«103737_j38199439130922_1_alg».proof.Proof.Spec

noncomputable section

namespace Cert.ReferenceIdeal.RefValue

open Cert.ReferenceIdeal Cert.ReferenceIdeal.Read Idealize.ShloMosaic Idealize.ShloMosaic.ValueIdx Cert.DenseRelu

/-- The left operand's index at output (p, q) and contraction position k is (p, k); -/
theorem lidx_eq (i : S2048x4096.Idx) (k : Fin 4096) : lidx_main_v19 i k = ix2 (i 0) k :=
  funext fun a => Fin.ext (by match a with | ⟨0, _⟩ => rfl | ⟨1, _⟩ => rfl)

/-- the right operand's is (k, q); -/
theorem ridx_eq (i : S2048x4096.Idx) (k : Fin 4096) : ridx_main_v19 i k = ix2 k (i 1) :=
  funext fun a => Fin.ext (by match a with | ⟨0, _⟩ => rfl | ⟨1, _⟩ => rfl)

/-- and the bias, broadcast to a row and then to every row, is read at q. -/
theorem bias_idx_eq (i : S2048x4096.Idx) : idx_main_v20 (idx_main_v21 i) = ix1 (i 1) :=
  funext fun a => Fin.ext (by match a with | ⟨0, _⟩ => rfl)

/-- The reference's result stage is `dense` of the activations, the scattered weight matrix and the bias. -/
theorem result_eq (x0 : (⟨S2048x4096, .f32⟩ : BufTy).Contents (Elt Ideal)) (x1 : (⟨S8388608, .f32⟩ : BufTy).Contents (Elt Ideal))
    (x2 : (⟨S4096, .f32⟩ : BufTy).Contents (Elt Ideal)) (x3 : (⟨S4096x2048, .i32⟩ : BufTy).Contents (Elt Ideal)) :
    val_main_v23 (F := Ideal) x0 x1 x2 x3 = dense x0 (val_main_v18 (F := Ideal) x1 x3) x2 := by
  funext i
  rw [val_main_v23_apply, val_main_v22_apply, val_main_v19_apply, val_main_v21_apply, val_main_v20_apply,
    val_main_call0_v0_apply, val_main_call0_cst_apply]
  simp only [lidx_eq, ridx_eq, bias_idx_eq, Ideal.addf_def, Ideal.maximumf_def]
  rfl

end Cert.ReferenceIdeal.RefValue

end
-- ==== Proof.lean ====
/-
  A dense layer with a rectifier over a sparse-pattern weight matrix: both programs compute

      out[p, q] = max (∑ₖ x[p, k] · W[k, q] + bias[q], 0),     p < 2048, k < 4096, q < 4096,

  where W is the 4096 × 4096 matrix that holds, in row i, the i-th group of 2048 entries of the value vector at the
  columns the column table names, and zero elsewhere. Both programs build W by the same scatter of the same
  arguments; the proof treats it as one opaque matrix.

  The reference contracts all 4096 terms in one sum. The kernel walks the contraction in four blocks of 1024 for each
  1024 × 1024 block of the result: a running total is reset to zero plus the first block product, the next three
  block products are added to it in turn, and after the fourth the bias is added and the rectifier applied. Over the
  extended reals every operation is the exact one and the change of float format is the identity, so the kernel's
  entry is  max ((((0 + s₀) + s₁) + s₂) + s₃ + bias[q], 0)  with sⱼ the j-th block's sum; addition of extended reals
  is commutative and associative, infinities included, so this is the reference's entry. The inputs' finiteness is
  not used.

  The idealization rewrote no operation of the kernel, so that claim is trivially true, and the three programs
  terminate without a fault with their arguments unchanged.
-/
import proofs.«103737_j38199439130922_1_alg».proof.Defs
import proofs.«103737_j38199439130922_1_alg».proof.Proof.Gen.Kernel
import proofs.«103737_j38199439130922_1_alg».proof.Proof.Gen.Kernel.Frame
import proofs.«103737_j38199439130922_1_alg».proof.Proof.Gen.KernelIdeal
import proofs.«103737_j38199439130922_1_alg».proof.Proof.Gen.KernelIdeal.Frame
import proofs.«103737_j38199439130922_1_alg».proof.Proof.Gen.KernelIdeal.Value
import proofs.«103737_j38199439130922_1_alg».proof.Proof.Gen.ReferenceIdeal
import proofs.«103737_j38199439130922_1_alg».proof.Proof.Gen.ReferenceIdeal.Run
import proofs.«103737_j38199439130922_1_alg».proof.Proof.Gen.ReferenceIdeal.Read
import proofs.«103737_j38199439130922_1_alg».proof.Proof.Gen.Pre_finite_inputs
import proofs.«103737_j38199439130922_1_alg».proof.Proof.KernelDense
import proofs.«103737_j38199439130922_1_alg».proof.Proof.RefDense

noncomputable section

namespace Cert.Proof

open Idealize.ShloMosaic Idealize.ShloMosaic.TcCoe Idealize.SL.Sem

/-- The two programs' weight matrices are one function of the value vector and the column table: the same host
    operations in the same order, word for word. -/
theorem weights_eq (x1 : (⟨Cert.KernelIdeal.S8388608, .f32⟩ : BufTy).Contents (Elt Ideal))
    (x3 : (⟨Cert.KernelIdeal.S4096x2048, .i32⟩ : BufTy).Contents (Elt Ideal)) :
    Cert.KernelIdeal.HostPrefix.weights (F := Ideal) x1 x3 = Cert.ReferenceIdeal.Read.val_main_v18 (F := Ideal) x1 x3 := by
  unfold Cert.KernelIdeal.HostPrefix.weights Cert.ReferenceIdeal.Read.val_main_v18 Cert.ReferenceIdeal.Read.val_main_v17
    Cert.ReferenceIdeal.Read.val_main_v16 Cert.ReferenceIdeal.Read.val_main_v15 Cert.ReferenceIdeal.Read.val_main_v14
    Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.ReferenceIdeal.Read.val_main_c Cert.ReferenceIdeal.Read.val_main_c_0 Cert.ReferenceIdeal.Read.val_main_c_1
    Cert.ReferenceIdeal.Read.val_main_c_2
  rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the four arguments both runs end with the result array at `dense` of the
    activations, the one weight matrix and the bias. -/
theorem algebraic : Cert.algebraic_KernelIdeal_ReferenceIdeal := by
  intro m ρ m' ρ' _ hagree
  refine ⟨fun c => Cert.KernelIdeal.Dense.result m c, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq,
    (hagree c).1, (hagree c).2.1, (hagree c).2.2.1, (hagree c).2.2.2, ← weights_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
